-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S64x64x256 : Shape := ⟨3, ![64, 64, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S64x64x256 : S_.BroadcastsInDim S64x64x256 (![] : Fin 0 → Fin S64x64x256.rank)
  reducesTo_S64x64x256_S_d0_1_2 : S64x64x256.ReducesTo [0, 1, 2] S_

variable [Facts]

def fn {F : FTy → Type} [FloatOps F] (main_arg0 : FVec F S256x256 .f32) (main_arg1 : FVec F S64x64x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S64x64x256 .f32 := Host.absf main_arg1
  let main_cst_0 : FVec F S_ .f32 := constant S_ .f32 0x7F800000#32
  let main_v5 : FVec F S64x64x256 .f32 := broadcastInDim S64x64x256 ![] bcast_S_S64x64x256 main_cst_0
  let main_v6 : IVec S64x64x256 1 := cmpf .olt main_v4 main_v5
  let main_c_1 : IVec S_ 1 := constantI S_ 1 1#1
  let main_v7 : IVec S_ 1 := (fun x v => Host.reduce IntOp.andi x v reducesTo_S64x64x256_S_d0_1_2 h_S_) main_v6 main_c_1
  let main_v8 : IVec S_ 1 := andi main_v3 main_v7
  main_v8
-- ==== Kernel.lean ====
abbrev S256x256 : Shape := ⟨2, ![256, 256]⟩
abbrev S64x64x256 : Shape := ⟨3, ![64, 64, 256]⟩
abbrev S4096x256 : Shape := ⟨2, ![4096, 256]⟩
abbrev S256x4096 : Shape := ⟨2, ![256, 4096]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S1x2048 : Shape := ⟨2, ![1, 2048]⟩
abbrev S256x64x64 : Shape := ⟨3, ![256, 64, 64]⟩

abbrev nBuf : Space → Nat
  | .hbm => 5
  | .vmem => 5
  | .smem => 0
  | _ => 0

abbrev bufTy : (tb : Table) → Fin (tcTables nBuf tb) → BufTy
  | .hbm, ⟨0, _⟩ => ⟨S256x256, .f32⟩
  | .hbm, ⟨1, _⟩ => ⟨S64x64x256, .f32⟩
  | .hbm, ⟨2, _⟩ => ⟨S4096x256, .f32⟩
  | .hbm, ⟨3, _⟩ => ⟨S256x4096, .f32⟩
  | .hbm, ⟨4, _⟩ => ⟨S256x64x64, .f32⟩
  | .local _ .vmem, ⟨0, _⟩ => ⟨S256x256, .f32⟩
  | .local _ .vmem, ⟨1, _⟩ => ⟨S2048x256, .f32⟩
  | .local _ .vmem, ⟨2, _⟩ => ⟨S2048x256, .f32⟩
  | .local _ .vmem, ⟨3, _⟩ => ⟨S256x2048, .f32⟩
  | .local _ .vmem, ⟨4, _⟩ => ⟨S256x2048, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x64x256_S4096x256 : S64x64x256.ShapeCasts S4096x256
  inb_S256x256_S256x256_0_0 : ∀ a, (![0, 0] : Fin 2 → Nat) a + S256x256.size a ≤ S256x256.size a
  h_S256x256 : 0 < S256x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S256x256_S256 : S256x256.Reduces [1] S256
  shapeCasts_S256_S256x1 : S256.ShapeCasts S256x1
  reduces_S2048x256_S2048 : S2048x256.Reduces [1] S2048
  shapeCasts_S2048_S2048x1 : S2048.ShapeCasts S2048x1
  transposes_S2048x1_p1_0_S1x2048 : S2048x1.Transposes [1, 0] S1x2048
  broadcasts_S256x1_S256x2048 : S256x1.Broadcasts S256x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  shapeCasts_S256x4096_S256x64x64 : S256x4096.ShapeCasts S256x64x64
  dot_S256x256_S2048x256_S256x2048_1_1_0_0_n_n_wf : DotDims.WF S256x256 S2048x256 S256x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x256.size a
  hwx0_1 : ∀ i : grid0.Coords, EltTy.bits .f32 = 32 ∨ (Rect.block (s := S4096x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x4096.size a
  hwx0_2 : ∀ i : grid0.Coords, EltTy.bits .f32 = 32 ∨ (Rect.block (s := S256x4096) S256x2048.size (cc0_transform_2 i) (hinb0_2 i)).WholeWords (EltTy.packing .f32)

variable [Facts₀]

def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf

abbrev win0_0 : Pipeline.Window sig grid0 :=
  Pipeline.Window.ofSpec (Memref.whole main_arg0) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x256 : Shape := ⟨2, ![256, 256]⟩
abbrev S64x64x256 : Shape := ⟨3, ![64, 64, 256]⟩
abbrev S256x1x1x256 : Shape := ⟨4, ![256, 1, 1, 256]⟩
abbrev S1x64x64x256 : Shape := ⟨4, ![1, 64, 64, 256]⟩
abbrev S256x64x64x256 : Shape := ⟨4, ![256, 64, 64, 256]⟩
abbrev S_ : Shape := ⟨0, ![]⟩
abbrev S256x64x64 : Shape := ⟨3, ![256, 64, 64]⟩

abbrev nBuf : Space → Nat
  | .hbm => 10
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S64x64x256, .f32⟩
  | .hbm, ⟨2, _⟩ => ⟨S256x1x1x256, .f32⟩
  | .hbm, ⟨3, _⟩ => ⟨S1x64x64x256, .f32⟩
  | .hbm, ⟨4, _⟩ => ⟨S256x64x64x256, .f32⟩
  | .hbm, ⟨5, _⟩ => ⟨S256x64x64x256, .f32⟩
  | .hbm, ⟨6, _⟩ => ⟨S256x64x64x256, .f32⟩
  | .hbm, ⟨7, _⟩ => ⟨S256x64x64x256, .f32⟩
  | .hbm, ⟨8, _⟩ => ⟨S_, .f32⟩
  | .hbm, ⟨9, _⟩ => ⟨S256x64x64, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S256x256_S256x1x1x256_0_3 : S256x256.BroadcastsInDim S256x1x1x256 (![0, 3] : Fin 2 → Fin S256x1x1x256.rank)
  bcast_S64x64x256_S1x64x64x256_1_2_3 : S64x64x256.BroadcastsInDim S1x64x64x256 (![1, 2, 3] : Fin 3 → Fin S1x64x64x256.rank)
  bcast_S1x64x64x256_S256x64x64x256_0_1_2_3 : S1x64x64x256.BroadcastsInDim S256x64x64x256 (![0, 1, 2, 3] : Fin 4 → Fin S256x64x64x256.rank)
  bcast_S256x1x1x256_S256x64x64x256_0_1_2_3 : S256x1x1x256.BroadcastsInDim S256x64x64x256 (![0, 1, 2, 3] : Fin 4 → Fin S256x64x64x256.rank)
  reducesTo_S256x64x64x256_S256x64x64_d3 : S256x64x64x256.ReducesTo [3] S256x64x64
  h_S_ : 0 < S_.numel

variable [Facts₀]

class Facts : Prop extends Facts₀ where

variable [Facts]
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.LibSqDist.lean ====
/-
  The expansion of a squared distance, stated for two rows of numbers indexed by any finite type.

  For real rows `x` and `w`,
      Σ_d (w d − x d)² = (Σ_d x d² + Σ_d w d²) − 2 · Σ_d x d · w d,
  by expanding each square and collecting the three sums. On the extended reals the same equation holds for rows
  whose entries are real numbers: every sum and product of reals is again a real, so both sides are the coercion of
  the real equation. (It fails at infinite entries: a difference of infinities on the left is not the difference of
  infinite sums on the right.) The left side carries the reduction's initial value 0 in front, as a sum written
  `0 + Σ` does. Last, the two float words that occur next to the sums: 0x00000000 is the number 0 and 0x40000000 the
  number 2.
-/
import Idealize.ShloMosaic.PureOps.Ideal
import Idealize.ShloMosaic.PureOps.Ideal.Laws

noncomputable section

open scoped BigOperators

namespace Cert.SqDist

open Idealize.ShloMosaic

variable {ι : Type*} [Fintype ι]

/-- Over the reals: the sum of the squared differences is the two sums of squares minus twice the inner product. -/
theorem real_sum_sq_sub (x w : ι → ℝ) :
    ∑ d, (w d - x d) * (w d - x d) = (∑ d, x d * x d + ∑ d, w d * w d) - 2 * ∑ d, x d * w d := by
  rw [Finset.mul_sum, ← Finset.sum_add_distrib, ← Finset.sum_sub_distrib]
  exact Finset.sum_congr rfl fun d _ => by ring

/-- The coercion of a finite sum of reals is the sum of the coercions. -/
theorem coe_sum {κ : Type*} (s : Finset κ) (f : κ → ℝ) : ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- The squared distance of two rows as the reference computes it: the initial value `z` plus the sum of the squared
    differences. -/
def direct (z : EReal) (x w : ι → EReal) : EReal := z + ∑ d, (w d - x d) * (w d - x d)

/-- The squared distance of two rows as the kernel computes it: the two sums of squares, minus `c` times the inner
    product. -/
def expanded (c : EReal) (x w : ι → EReal) : EReal := (∑ d, x d * x d + ∑ d, w d * w d) - c * ∑ d, x d * w d

/-- On rows of real numbers, with initial value 0 and factor 2, the two computations agree. -/
theorem expanded_eq_direct (x w : ι → EReal) (hx : ∀ d, ∃ r : ℝ, x d = (r : EReal)) (hw : ∀ d, ∃ r : ℝ, w d = (r : EReal)) :
    expanded ((2 : ℝ) : EReal) x w = direct 0 x w := by
  choose xr hxr using hx
  choose wr hwr using hw
  obtain rfl : x = fun d => (xr d : EReal) := funext hxr
  obtain rfl : w = fun d => (wr d : EReal) := funext hwr
  unfold expanded direct
  simp only [← EReal.coe_mul, ← EReal.coe_sub, ← coe_sum, ← EReal.coe_add, zero_add]
  exact congrArg _ (real_sum_sq_sub xr wr).symm

/-- The float word of `2.0` is the real number 2. -/
theorem ofBits_two : Ideal.ofBits .f32 0x40000000#32 = ((2 : ℝ) : EReal) := by
  simp [Ideal.ofBits, Ideal.ieee, -EReal.coe_mul]; norm_num

/-- The float word of `0.0` is 0. -/
theorem ofBits_zero : Ideal.ofBits .f32 0x00000000#32 = 0 := Ideal.ofBits_zero_f32

end Cert.SqDist

end
-- ==== Proof.Body.lean ====
/-
  What one grid point's body computes, read at one entry of its output block.

  The body holds a block `X` of 256 input rows and a block `Wb` of 2048 codebook rows, each row of length 256. It forms
  the matrix of inner products Σ_d X[p,d]·Wb[q,d] (one matrix product, the right operand contracted along its rows),
  the squared norm of every input row, kept as a column and spread along the rows, and the squared norm of every
  codebook row, kept as a column, turned into a row and spread down the columns, and stores
  (‖X[p]‖² + ‖Wb[q]‖²) − 2·⟨X[p], Wb[q]⟩ at (p, q). So entry (p, q) of the block is the expanded squared distance of
  row p of `X` and row q of `Wb`.
-/
import proofs.«157010_g86260123174703_cont_9to1_m_1033_23_alg».proof.Proof.Gen.KernelIdeal.Skeleton
import proofs.«157010_g86260123174703_cont_9to1_m_1033_23_alg».proof.Proof.LibKeepdims
import proofs.«157010_g86260123174703_cont_9to1_m_1033_23_alg».proof.Proof.LibSqDist
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.SqDist.Body

open Idealize.ShloMosaic Idealize.ShloMosaic.ValueIdx Cert.KernelIdeal Cert.KernelIdeal.Gen

/-- The matrix product's dimension numbers: both operands contracted along axis 1. -/
abbrev D := dot_S256x256_S2048x256_S256x2048_1_1_0_0_n_n

/-- A lane sum of the entrywise square of an `a × k` array, read at row `p`: the sum of the squares of that row. -/
theorem rowSumSq_apply {a k : ℕ} (X : FVec Ideal ⟨2, ![a, k]⟩ .f32) (h : (⟨2, ![a, k]⟩ : Shape).Reduces [1] ⟨1, ![a]⟩)
    (hφ : FKind.Formats .f32) (hacc : (0x00000000#32 : BitVec 32) = FKind.add.neutral .f32 hφ) (p : Fin a) :
    multiReduction .add [1] ⟨1, ![a]⟩ (mulf X X) 0x00000000#32 h hφ hacc (ix1 p) = ∑ d : Fin k, X (ix2 p d) * X (ix2 p d) := by
  refine (Ideal.multiReduction_add_single (mulf X X) 0x00000000#32 h hφ hacc (ix1 p)).trans ?_
  refine Finset.sum_congr rfl fun d _ => ?_
  have e : h.lift (ix1 p) d = ix2 p d :=
    funext fun ax => Fin.ext (by match ax with | ⟨0, _⟩ => rfl | ⟨1, _⟩ => rfl)
  rw [e]
  rfl

/-- The matrix product into a zero accumulator, read at (p, q): the inner product of row p of the left operand and
    row q of the right. -/
theorem matmul_apply (X : FVec Ideal S256x256 .f32) (Wb : FVec Ideal S2048x256 .f32) (p : Fin 256) (q : Fin 2048) :
    matmul D none X Wb (constant (F := Ideal) S256x2048 .f32 0x00000000#32) (ix2 p q) = ∑ d : Fin 256, X (ix2 p d) * Wb (ix2 q d) := by
  refine (Ideal.matmul_constant_zero_apply D none X Wb (ix2 p q)).trans ?_
  refine ((Equiv.sum_comp (contrEquiv1 D 256 rfl rfl).symm _).symm).trans (Finset.sum_congr rfl fun d _ => ?_)
  have el : D.lhsIdx (ix2 p q) ((contrEquiv1 D 256 rfl rfl).symm d) = ix2 p d := funext fun ax => Fin.ext (by
    match ax with
    | ⟨0, _⟩ => rfl
    | ⟨1, _⟩ => exact (D.lhsIdx_val_of_single rfl _ _).trans (contrEquiv1_symm_val D 256 rfl rfl d))
  have er : D.rhsIdx (ix2 p q) ((contrEquiv1 D 256 rfl rfl).symm d) = ix2 q d := funext fun ax => Fin.ext (by
    match ax with
    | ⟨0, _⟩ => rfl
    | ⟨1, _⟩ => exact (D.rhsIdx_val_of_single rfl _ _).trans (contrEquiv1_symm_val D 256 rfl rfl d))
  rw [el, er]

/-- Entry (p, q) of the block the body stores: the expanded squared distance of row p of the input block and row q of
    the codebook block, the factor in front of the inner product the float word of 2.0. -/
theorem pay_apply (X : Vec Ideal S256x256 .f32) (Wb : Vec Ideal S2048x256 .f32) (p : Fin 256) (q : Fin 2048) :
    k0_pay1 (F := Ideal) X Wb (ix2 p q)
      = expanded (Ideal.ofBits .f32 0x40000000#32) (fun d : Fin 256 => X (ix2 p d)) (fun d : Fin 256 => Wb (ix2 q d)) := by
  unfold k0_pay1
  rw [shapeCast_self]
  rw [subf_apply, addf_apply, mulf_apply, broadcast_apply]
  rw [Cert.Gcn.broadcastTo_a1_ab_apply, Cert.Gcn.shapeCast_a_a1_apply, broadcastTo_1b_ab_apply, transpose_ix2_apply,
    Cert.Gcn.shapeCast_a_a1_apply]
  unfold expanded
  exact congrArg₂ (· - ·) (congrArg₂ (· + ·) (rowSumSq_apply X _ _ _ p) (rowSumSq_apply Wb _ _ _ q))
    (congrArg₂ (· * ·) rfl (matmul_apply X Wb p q))

end Cert.SqDist.Body

end
-- ==== Proof.Spec.lean ====
/-
  The result as one function of the two argument arrays, and the two arrangements of it.

  `dist x w` is the [256, 64, 64] array whose entry (b, r, c) is the squared distance, computed directly, between row b
  of the [256, 256] array `x` and the codebook vector (r, c) of the [64, 64, 256] array `w`.

  The kernel works on the codebook flattened to [4096, 256] — vector (r, c) is row r·64 + c — and produces a
  [256, 4096] array `flat x wf` whose entry (b, n) is the expanded squared distance of row b of `x` and row n of the
  flattened codebook; its result is that array reshaped to [256, 64, 64], entry (b, r, c) being entry (b, r·64 + c).
  Both reshapes keep the row-major position, so (b, r, c) of the kernel's result is the expanded squared distance of row
  b of `x` and vector (r, c) of `w`; on arrays of real numbers that is the direct one (the expansion of the square).
-/
import proofs.«157010_g86260123174703_cont_9to1_m_1033_23_alg».proof.Proof.LibSqDist
import Idealize.ShloMosaic.Lib.ValueIdx
import Idealize.ShloMosaic.Lib.Pipeline.Value

noncomputable section

open scoped BigOperators

namespace Cert.SqDist

open Idealize.ShloMosaic Idealize.ShloMosaic.ValueIdx

/-- The squared distances computed directly: entry (b, r, c) from row b of `x` and vector (r, c) of `w`. -/
def dist (x : (⟨2, ![256, 256]⟩ : Shape).Idx → EReal) (w : (⟨3, ![64, 64, 256]⟩ : Shape).Idx → EReal) :
    (⟨3, ![256, 64, 64]⟩ : Shape).Idx → EReal :=
  fun i => direct 0 (fun d : Fin 256 => x (ix2 (i 0) d)) (fun d : Fin 256 => w (ix3 (i 1) (i 2) d))

theorem dist_apply (x : (⟨2, ![256, 256]⟩ : Shape).Idx → EReal) (w : (⟨3, ![64, 64, 256]⟩ : Shape).Idx → EReal)
    (b : Fin 256) (r c : Fin 64) :
    dist x w (ix3 b r c) = direct 0 (fun d : Fin 256 => x (ix2 b d)) (fun d : Fin 256 => w (ix3 r c d)) := rfl

/-- The kernel's array before the last reshape: entry (b, n) is the expanded squared distance of row b of `x` and row n
    of the flattened codebook `wf`, the factor in front of the inner product the float word of 2.0. -/
def flat (x : (⟨2, ![256, 256]⟩ : Shape).Idx → EReal) (wf : (⟨2, ![4096, 256]⟩ : Shape).Idx → EReal) :
    (⟨2, ![256, 4096]⟩ : Shape).Idx → EReal :=
  fun i => expanded (Ideal.ofBits .f32 0x40000000#32) (fun d : Fin 256 => x (ix2 (i 0) d)) (fun d : Fin 256 => wf (ix2 (i 1) d))

theorem flat_apply (x : (⟨2, ![256, 256]⟩ : Shape).Idx → EReal) (wf : (⟨2, ![4096, 256]⟩ : Shape).Idx → EReal)
    (b : Fin 256) (n : Fin 4096) :
    flat x wf (ix2 b n)
      = expanded (Ideal.ofBits .f32 0x40000000#32) (fun d : Fin 256 => x (ix2 b d)) (fun d : Fin 256 => wf (ix2 n d)) := rfl

/-- Row r·64 + c of the flattened codebook is vector (r, c). -/
theorem flatten_apply (w : (⟨3, ![64, 64, 256]⟩ : Shape).Idx → EReal)
    (h : (⟨3, ![64, 64, 256]⟩ : Shape).ShapeCasts ⟨2, ![4096, 256]⟩) (r c : Fin 64) (hn : r.val * 64 + c.val < 4096) (d : Fin 256) :
    shapeCast ⟨2, ![4096, 256]⟩ w h (ix2 ⟨r.val * 64 + c.val, hn⟩ d) = w (ix3 r c d) :=
  shapeCast_apply w h _ _ (by
    rw [Shape.rowMajor_val_three, Shape.rowMajor_val_two]
    rfl)

/-- The kernel's result is the direct squared distances, on arrays of real numbers: entry (b, r, c) of the reshaped array
    is entry (b, r·64 + c) of `flat`, whose codebook row is vector (r, c), and the expanded squared distance of two real
    rows is the direct one. -/
theorem unflatten_flat_eq_dist (x : (⟨2, ![256, 256]⟩ : Shape).Idx → EReal) (w : (⟨3, ![64, 64, 256]⟩ : Shape).Idx → EReal)
    (h1 : (⟨3, ![64, 64, 256]⟩ : Shape).ShapeCasts ⟨2, ![4096, 256]⟩)
    (h2 : (⟨2, ![256, 4096]⟩ : Shape).ShapeCasts ⟨3, ![256, 64, 64]⟩)
    (hx : ∀ i, ∃ r : ℝ, x i = (r : EReal)) (hw : ∀ i, ∃ r : ℝ, w i = (r : EReal)) :
    shapeCast ⟨3, ![256, 64, 64]⟩ (flat x (shapeCast ⟨2, ![4096, 256]⟩ w h1)) h2 = dist x w := by
  funext i
  obtain ⟨b, r, c, rfl⟩ : ∃ (b : Fin 256) (r c : Fin 64), i = ix3 b r c := ⟨i 0, i 1, i 2, eq_ix3 i⟩
  have hn : r.val * 64 + c.val < 4096 := by have := r.isLt; have := c.isLt; omega
  have e1 : shapeCast ⟨3, ![256, 64, 64]⟩ (flat x (shapeCast ⟨2, ![4096, 256]⟩ w h1)) h2 (ix3 b r c)
      = flat x (shapeCast ⟨2, ![4096, 256]⟩ w h1) (ix2 b ⟨r.val * 64 + c.val, hn⟩) :=
    shapeCast_apply _ h2 _ _ (by
      rw [Shape.rowMajor_val_two, Shape.rowMajor_val_three]
      show b.val * 4096 + (r.val * 64 + c.val) = (b.val * 64 + r.val) * 64 + c.val
      ring)
  rw [e1, flat_apply, dist_apply]
  have e2 : (fun d : Fin 256 => shapeCast ⟨2, ![4096, 256]⟩ w h1 (ix2 ⟨r.val * 64 + c.val, hn⟩ d)) = fun d => w (ix3 r c d) :=
    funext fun d => flatten_apply w h1 r c hn d
  rw [e2, ofBits_two]
  exact expanded_eq_direct _ _ (fun d => hx _) (fun d => hw _)

end Cert.SqDist

end
-- ==== Proof.KernelArray.lean ====
/-
  The [256, 4096] array the region leaves.

  The grid has two points. At point t the body sees the whole input array `x` (its window does not move), rows
  2048·t … 2048·t + 2047 of the flattened codebook `wf`, and writes back columns 2048·t … 2048·t + 2047 of the output.
  Entry (p, q) of what it writes back is the expanded squared distance of row p of `x` and row q of its codebook block,
  that is of row 2048·t + q of `wf`: exactly entry (p, 2048·t + q) of `flat x wf`. So each point writes back its block of
  the one array `flat x wf`; the two column blocks cover all 4096 columns, column n lying in block n / 2048; hence the
  array ends holding `flat x wf`.
-/
import proofs.«157010_g86260123174703_cont_9to1_m_1033_23_alg».proof.Proof.Gen.KernelIdeal.Frame
import proofs.«157010_g86260123174703_cont_9to1_m_1033_23_alg».proof.Proof.Body
import proofs.«157010_g86260123174703_cont_9to1_m_1033_23_alg».proof.Proof.Spec
import Idealize.ShloMosaic.Lib.Pipeline.Value

noncomputable section

namespace Cert.SqDist.Kernel

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- Where the three windows' blocks sit at a grid point: the input's block index is (0, 0); the codebook's is (k, 0) and
    the output's (0, k) with the same k, which is 0 or 1. -/
theorem block_indices : ∀ t : Fin cfg0.N,
    win0_0.index t (0 : Fin 2) = 0 ∧ win0_0.index t (1 : Fin 2) = 0
    ∧ win0_1.index t (0 : Fin 2) = win0_2.index t (1 : Fin 2) ∧ win0_1.index t (1 : Fin 2) = 0
    ∧ win0_2.index t (0 : Fin 2) = 0 ∧ win0_2.index t (1 : Fin 2) ≤ 1 :=
  (by decide +kernel : ∀ t : Fin grid0.N, _)

/-- Each of the two column blocks of the output is some point's. -/
theorem block_onto : ∀ k : Fin 2, ∃ t : Fin cfg0.N, win0_2.index t = ![0, k.val] :=
  (by decide +kernel : ∀ k : Fin 2, ∃ t : Fin grid0.N, win0_2.index t = ![0, k.val])

/-- At every point the input window's block is the whole input array. -/
theorem xblock_apply (c : Dev nD) (t : Fin cfg0.N) (p d : Fin 256) :
    (iblk m c 0 t : Vec Ideal S256x256 .f32) (ix2 p d) = (V m c main_arg0 : S256x256.Idx → EReal) (ix2 p d) := by
  obtain ⟨e0, e1, -, -, -, -⟩ := block_indices t
  unfold iblk
  rw [View.read_apply]
  show V m c main_arg0 _ = V m c main_arg0 _
  congr 1
  funext a
  apply Fin.ext
  match a with
  | ⟨0, _⟩ => show win0_0.index t (0 : Fin 2) * 256 + 1 * p.val = p.val; rw [e0]; omega
  | ⟨1, _⟩ => show win0_0.index t (1 : Fin 2) * 256 + 1 * d.val = d.val; rw [e1]; omega

/-- At a point whose output block is column block k, row q of the codebook window's block is row 2048·k + q of the
    flattened codebook. -/
theorem wblock_apply (c : Dev nD) (t : Fin cfg0.N) (q : Fin 2048) (n : Fin 4096)
    (hn : n.val = win0_2.index t (1 : Fin 2) * 2048 + q.val) (d : Fin 256) :
    (iblk m c 1 t : Vec Ideal S2048x256 .f32) (ix2 q d) = (V m c main_v0 : S4096x256.Idx → EReal) (ix2 n d) := by
  obtain ⟨-, -, e2, e3, -, -⟩ := block_indices t
  unfold iblk
  rw [View.read_apply]
  show V m c main_v0 _ = V m c main_v0 _
  congr 1
  funext a
  apply Fin.ext
  match a with
  | ⟨0, _⟩ => show win0_1.index t (0 : Fin 2) * 2048 + 1 * q.val = n.val; rw [e2, hn]; omega
  | ⟨1, _⟩ => show win0_1.index t (1 : Fin 2) * 256 + 1 * d.val = d.val; rw [e3]; omega

/-- What point t writes back is its block of `flat x wf`, of the arrays as the region finds them. -/
theorem flushed_eq (c : Dev nD) (t : Fin cfg0.N) :
    (dats (F := Ideal) m 0 c).flushed 2 t
      = ((cfg0.win 2).blk t).view.read (Elt Ideal) (flat (V m c main_arg0) (V m c main_v0)) := by
  show (cfg0.win 2).cut (grid0.coords t) ((dats m 0 c).after 2 t) = _
  rw [after0_2]
  unfold out0_2
  rw [View.canon_unit_zero zero_offsets]
  simp only [View.ld_unit_zero (S := S256x256) zero_offsets, View.ld_unit_zero (S := S2048x256) zero_offsets]
  obtain ⟨-, -, -, -, e4, e5⟩ := block_indices t
  funext j
  obtain ⟨p, q, rfl⟩ : ∃ (p : Fin 256) (q : Fin 2048), j = ix2 p q := ⟨j 0, j 1, eq_ix2 j⟩
  have hn : win0_2.index t (1 : Fin 2) * 2048 + q.val < 4096 := by have := q.isLt; omega
  have hemb : ((cfg0.win 2).blk t).view.emb (ix2 p q) = ix2 p (⟨win0_2.index t (1 : Fin 2) * 2048 + q.val, hn⟩ : Fin 4096) := by
    funext a
    apply Fin.ext
    match a with
    | ⟨0, _⟩ => show win0_2.index t (0 : Fin 2) * 256 + 1 * p.val = p.val; rw [e4]; omega
    | ⟨1, _⟩ => show win0_2.index t (1 : Fin 2) * 2048 + 1 * q.val = win0_2.index t (1 : Fin 2) * 2048 + q.val; omega
  rw [View.read_apply, hemb, flat_apply]
  refine (Body.pay_apply (iblk m c 0 t) (iblk m c 1 t) p q).trans ?_
  exact congrArg₂ (expanded _) (funext fun d => xblock_apply m c t p d)
    (funext fun d => wblock_apply m c t q ⟨_, hn⟩ rfl d)

/-- An index of the output array is in point t's block iff each coordinate is in the block's range on its axis. -/
theorem mem_block (t : Fin cfg0.N) (i : S256x4096.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v1).slice (win0_2.rect t)).set ↔ _
  rw [View.set_slice_whole, Rect.mem_set_unit]
  exact Iff.rfl

/-- Every index of the output array is in the block of a point that writes back: column n is in column block n / 2048. -/
theorem covered (i : S256x4096.Idx) :
    ∃ t : Fin cfg0.N, (cfg0.win 2).flush t = true ∧ i ∈ ((cfg0.win 2).blk t).view.set := by
  have hi0 : (i 0).val < 256 := (i 0).isLt
  have hi1 : (i 1).val < 4096 := (i 1).isLt
  obtain ⟨t, ht⟩ := block_onto ⟨(i 1).val / 2048, by omega⟩
  have q0 : win0_2.index t (0 : Fin 2) = 0 := congrFun ht 0
  have q1 : win0_2.index t (1 : Fin 2) = (i 1).val / 2048 := congrFun ht 1
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 2048 ≤ (i 1).val ∧ (i 1).val < win0_2.index t (1 : Fin 2) * 2048 + 2048
    omega

/-- The output array after the region is `flat` of the input and the flattened codebook as the region finds them. -/
theorem array_eq (c : Dev nD) :
    (dats (F := Ideal) m 0 c).arrAt 2 cfg0.N = flat (V m c main_arg0) (V m c main_v0) :=
  (dats m 0 c).arrAt_eq_of_cover 2 _ (fun t _ => flushed_eq m c t) covered

end Cert.SqDist.Kernel

end
-- ==== Proof.KernelRun.lean ====
/-
  The kernel's run, read: its result is the direct squared distances of its arguments.

  Before the region the program flattens the codebook `w` to [4096, 256]; the region leaves the [256, 4096] array
  `flat x wf` of the input `x` and that flattened codebook `wf`; after the region the program reshapes the array to
  [256, 64, 64], which is the result. On arguments that are arrays of real numbers this is `dist x w`. The argument arrays
  end as they began: the input is a window the region only reads, the codebook is touched by no operation.
-/
import proofs.«157010_g86260123174703_cont_9to1_m_1033_23_alg».proof.Proof.KernelArray
import Idealize.ShloMosaic.Lib.StableHlo.Run

noncomputable section

namespace Cert.SqDist.Kernel

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The region finds the second window's array at the codebook argument flattened to [4096, 256]. -/
theorem flattened (c : Dev nD) : (V m c main_v0 : S4096x256.Idx → EReal)
    = shapeCast S4096x256 (m ((c : Thread nD τ).loc main_arg1)) shapeCasts_S64x64x256_S4096x256 := by
  show StableHlo.after hostOps0 (fun b => m (c, b)) (Proc.devRef .tc main_v0) = _
  after_results
  rfl

/-- The result buffer after the last operation is the region's output array reshaped to [256, 64, 64]. -/
theorem result_eq_reshape (c : Dev nD) :
    Pipeline.afterTail₀ cfgs (dats (F := Ideal) m) 0 (V0 m) [hostOps1] c main_v2
      = shapeCast S256x64x64 ((dats (F := Ideal) m 0 c).arrAt 2 cfg0.N) shapeCasts_S256x4096_S256x64x64 := by
  unfold Pipeline.afterTail₀
  show StableHlo.after hostOps1 _ (Proc.devRef .tc main_v2) = _
  after_results
  exact congrArg (fun A => shapeCast S256x64x64 A shapeCasts_S256x4096_S256x64x64)
    (Pipeline.withArrays_arr spec0 launch0.win.arr_inj c _ _ 2)

/-- The result buffer is the direct squared distances of the arguments, when these are arrays of real numbers. -/
theorem result_eq_dist (c : Dev nD)
    (hx : ∀ i, ∃ r : ℝ, (m ((c : Thread nD τ).loc main_arg0) : S256x256.Idx → EReal) i = (r : EReal))
    (hw : ∀ i, ∃ r : ℝ, (m ((c : Thread nD τ).loc main_arg1) : S64x64x256.Idx → EReal) i = (r : EReal)) :
    Pipeline.afterTail₀ cfgs (dats (F := Ideal) m) 0 (V0 m) [hostOps1] c main_v2
      = dist (m ((c : Thread nD τ).loc main_arg0)) (m ((c : Thread nD τ).loc main_arg1)) := by
  rw [result_eq_reshape, array_eq, flattened, V_main_arg0]
  exact unflatten_flat_eq_dist _ _ _ _ hx hw

/-- Every weakly fair execution of the kernel program terminates without a fault, its result at the direct squared
    distances of its arguments (arrays of real numbers) and its arguments unchanged. -/
theorem run (hx : ∀ (c : Dev nD) i, ∃ r : ℝ, (m ((c : Thread nD τ).loc main_arg0) : S256x256.Idx → EReal) i = (r : EReal))
    (hw : ∀ (c : Dev nD) i, ∃ r : ℝ, (m ((c : Thread nD τ).loc main_arg1) : S64x64x256.Idx → EReal) i = (r : EReal)) :
    θ_run defs (onTc (τ := τ) (main (F := Ideal))) ⟨m, fun _ => 0, ρ⟩ fun r => ∀ c : Dev nD,
      r.2.mem ((c.tc : Thread nD τ).loc main_v2) = dist (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (result_eq_dist m c (hx c) (hw c)),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.SqDist.Kernel

end
-- ==== Proof.RefSide.lean ====
/-
  The reference computes the direct squared distances.

  Its program broadcasts `x` to [256, 1, 1, 256] and on to [256, 64, 64, 256], broadcasts `w` to [1, 64, 64, 256] and on to
  the same shape, subtracts, squares, and sums the last axis from the initial value 0. Read at (b, r, c): the two
  broadcasts of `x` read it at (b, k), those of `w` at (r, c, k), so the entry is 0 + Σ_k (w[r,c,k] − x[b,k])².
-/
import proofs.«157010_g86260123174703_cont_9to1_m_1033_23_alg».proof.Proof.Gen.ReferenceIdeal.Read
import proofs.«157010_g86260123174703_cont_9to1_m_1033_23_alg».proof.Proof.Spec

noncomputable section

open scoped BigOperators

namespace Cert.SqDist.Ref

open Idealize.ShloMosaic Idealize.ShloMosaic.ValueIdx Cert.ReferenceIdeal Cert.ReferenceIdeal.Gen Cert.ReferenceIdeal.Read

/-- Through the two broadcasts of `w`, position k of the summed axis at (b, r, c) reads `w` at (r, c, k). -/
theorem idx_w (b : Fin 256) (r c : Fin 64) (k : Fin 256) :
    idx_main_v1 (idx_main_v2 (idx_main_v6 (ix3 b r c) k)) = ix3 r c k :=
  funext fun a => Fin.ext (by match a with | ⟨0, _⟩ => rfl | ⟨1, _⟩ => rfl | ⟨2, _⟩ => rfl)

/-- Through the two broadcasts of `x`, it reads `x` at (b, k). -/
theorem idx_x (b : Fin 256) (r c : Fin 64) (k : Fin 256) :
    idx_main_v0 (idx_main_v3 (idx_main_v6 (ix3 b r c) k)) = ix2 b k :=
  funext fun a => Fin.ext (by match a with | ⟨0, _⟩ => rfl | ⟨1, _⟩ => rfl)

/-- The reference's last stage is the direct squared distances. -/
theorem stage_eq_dist (x0 : FVec Ideal S256x256 .f32) (x1 : FVec Ideal S64x64x256 .f32) :
    val_main_v6 (F := Ideal) x0 x1 = dist x0 x1 := by
  funext i
  obtain ⟨b, r, c, rfl⟩ : ∃ (b : Fin 256) (r c : Fin 64), i = ix3 b r c := ⟨i 0, i 1, i 2, eq_ix3 i⟩
  rw [val_main_v6_apply, dist_apply]
  unfold direct
  refine congrArg₂ (· + ·) ofBits_zero (Finset.sum_congr rfl fun k _ => ?_)
  rw [val_main_v5_apply, val_main_v4_apply, val_main_v2_apply, val_main_v1_apply, val_main_v3_apply, val_main_v0_apply,
    idx_w, idx_x]
  rfl

end Cert.SqDist.Ref

end
-- ==== Proof.Finite.lean ====
/-
  Finite inputs are real numbers.

  The precondition says, of each argument array, that every entry's absolute value is below +∞, the conjunction taken
  over all entries and over the two arrays. On the extended reals the absolute value of −∞ and of +∞ is +∞, which is not
  below +∞; so an entry that passes is a real number.
-/
import proofs.«157010_g86260123174703_cont_9to1_m_1033_23_alg».proof.Pre_finite_inputs
import proofs.«157010_g86260123174703_cont_9to1_m_1033_23_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.SqDist.Finite

open Idealize.ShloMosaic Cert.Pre_finite_inputs Cert.Pre_finite_inputs.Gen

/-- The rank-0 shape has one index. -/
instance : Subsingleton S_.Idx := ⟨fun a b => funext fun d => d.elim0⟩

/-- The float word 0x7F800000 is +∞. -/
theorem ofBits_inf : Ideal.ofBits .f32 0x7F800000#32 = ⊤ := by simp [Ideal.ofBits, Ideal.ieee]

/-- An extended real whose absolute value compares below +∞ is a real number. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- Under the precondition every entry of both arrays is a real number. -/
theorem real_of_pre (x0 : FVec Ideal S256x256 .f32) (x1 : FVec Ideal S64x64x256 .f32)
    (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.mp h0
  refine ⟨fun i => ?_, fun i => ?_⟩
  · have e := Host.reduce_andi_all _ _ _ _ _ ha i
    refine real_of_abs_lt_top _ ?_
    rw [← ofBits_inf]
    exact e
  · have e := Host.reduce_andi_all _ _ _ _ _ hb i
    refine real_of_abs_lt_top _ ?_
    rw [← ofBits_inf]
    exact e

end Cert.SqDist.Finite

end
-- ==== Proof.lean ====
/-
  Squared distances from 256 input vectors to a 64 × 64 grid of codebook vectors, all of dimension 256.

  The reference computes entry (b, r, c) directly, as Σ_d (w[r,c,d] − x[b,d])². The kernel flattens the grid to 4096
  vectors, and in one region over two grid points forms, for each half of the codebook, the inner products of the
  input rows with the codebook rows (one matrix product), the squared norms of the input rows and of the codebook rows,
  and (‖x[b]‖² + ‖w[n]‖²) − 2·⟨x[b], w[n]⟩; it then reshapes the [256, 4096] array to [256, 64, 64].

  Read as exact extended reals the two programs agree on finite inputs: flattening and reshaping keep each entry's
  row-major position, so the kernel's entry (b, r, c) is the expanded squared distance of x[b] and w[r,c]; and for rows
  of real numbers the expansion of the square, Σ_d (w_d − x_d)² = Σ_d x_d² + Σ_d w_d² − 2·Σ_d x_d·w_d, holds. Finiteness
  is used: at an infinite entry the two sides differ. No operation of the kernel was rewritten when it was read at the
  exact values, so that reading is sanctioned with nothing to show. Each program runs to the end without a fault and
  leaves its two arguments unchanged.
-/
import proofs.«157010_g86260123174703_cont_9to1_m_1033_23_alg».proof.Defs
import proofs.«157010_g86260123174703_cont_9to1_m_1033_23_alg».proof.Proof.Gen.Kernel
import proofs.«157010_g86260123174703_cont_9to1_m_1033_23_alg».proof.Proof.Gen.Kernel.Skeleton
import proofs.«157010_g86260123174703_cont_9to1_m_1033_23_alg».proof.Proof.Gen.Kernel.Launch
import proofs.«157010_g86260123174703_cont_9to1_m_1033_23_alg».proof.Proof.Gen.Kernel.Points
import proofs.«157010_g86260123174703_cont_9to1_m_1033_23_alg».proof.Proof.Gen.Kernel.Frame
import proofs.«157010_g86260123174703_cont_9to1_m_1033_23_alg».proof.Proof.Gen.KernelIdeal
import proofs.«157010_g86260123174703_cont_9to1_m_1033_23_alg».proof.Proof.Gen.KernelIdeal.Skeleton
import proofs.«157010_g86260123174703_cont_9to1_m_1033_23_alg».proof.Proof.Gen.KernelIdeal.Launch
import proofs.«157010_g86260123174703_cont_9to1_m_1033_23_alg».proof.Proof.Gen.KernelIdeal.Points
import proofs.«157010_g86260123174703_cont_9to1_m_1033_23_alg».proof.Proof.Gen.KernelIdeal.Frame
import proofs.«157010_g86260123174703_cont_9to1_m_1033_23_alg».proof.Proof.Gen.ReferenceIdeal
import proofs.«157010_g86260123174703_cont_9to1_m_1033_23_alg».proof.Proof.Gen.Pre_finite_inputs
import proofs.«157010_g86260123174703_cont_9to1_m_1033_23_alg».proof.Proof.Gen.ReferenceIdeal.Run
import proofs.«157010_g86260123174703_cont_9to1_m_1033_23_alg».proof.Proof.Gen.ReferenceIdeal.Read
import proofs.«157010_g86260123174703_cont_9to1_m_1033_23_alg».proof.Proof.KernelRun
import proofs.«157010_g86260123174703_cont_9to1_m_1033_23_alg».proof.Proof.RefSide
import proofs.«157010_g86260123174703_cont_9to1_m_1033_23_alg».proof.Proof.Finite
import Idealize.ShloMosaic.Adequacy
import Idealize.ShloMosaic.Init

noncomputable section

namespace Cert.Proof

open Idealize.ShloMosaic Idealize.SL.Sem

/-- The kernel as printed runs to the end, faults nowhere, and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the exact reading. -/
theorem preserves : Cert.preserves_Kernel_KernelIdeal := trivial

/-- On finite inputs both programs end with the direct squared distances of the arguments: the kernel by the expansion
    of the square on rows of real numbers, the reference by reading its operations at an index. -/
theorem algebraic : Cert.algebraic_KernelIdeal_ReferenceIdeal := by
  intro m ρ m' ρ' hpre hagree
  have hreal := fun c => Cert.SqDist.Finite.real_of_pre _ _ (hpre c)
  refine ⟨_, Cert.SqDist.Kernel.run m ρ (fun c => (hreal c).1) (fun c => (hreal c).2), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v6_eq _ _).trans (Cert.SqDist.Ref.stage_eq_dist _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
